-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S4x2048x1024 .f32) (main_arg1 : FVec F S1024x1024 .f32) (main_arg2 : FVec F S1024x1024 .f32) (main_arg3 : FVec F S1024x1024 .f32) (main_arg4 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S8192x1024 : Shape := ⟨2, ![8192, 1024]⟩
abbrev S1x1024 : Shape := ⟨2, ![1, 1024]⟩

abbrev nBuf : Space → Nat
  | .hbm => 12
  | .vmem => 6
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024, .f32⟩
  | .hbm, ⟨5, _⟩ => ⟨S8192x1024, .f32⟩
  | .hbm, ⟨6, _⟩ => ⟨S1x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | .hbm, ⟨10, _⟩ => ⟨S8192x1024, .f32⟩
  | .hbm, ⟨11, _⟩ => ⟨S4x2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4x2048x1024_S8192x1024 : S4x2048x1024.ShapeCasts S8192x1024
  shapeCasts_S1024_S1x1024 : S1024.ShapeCasts S1x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S8192x1024_S4x2048x1024 : S8192x1024.ShapeCasts S4x2048x1024
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x1024.size a
  hwx0_3 : ∀ i : grid0.Coords, EltTy.bits .f32 = 32 ∨ (Rect.block (s := S8192x1024) S1024x1024.size (cc0_transform_3 i) (hinb0_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S1x1x1024 : Shape := ⟨3, ![1, 1, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024, .f32⟩
  | .hbm, ⟨5, _⟩ => ⟨S4x2048x1024, .f32⟩
  | .hbm, ⟨6, _⟩ => ⟨S4x2048x1024, .f32⟩
  | .hbm, ⟨7, _⟩ => ⟨S4x2048x1024, .f32⟩
  | .hbm, ⟨8, _⟩ => ⟨S1x1x1024, .f32⟩
  | .hbm, ⟨9, _⟩ => ⟨S4x2048x1024, .f32⟩
  | .hbm, ⟨10, _⟩ => ⟨S4x2048x1024, .f32⟩
  | .hbm, ⟨11, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  dot_S4x2048x1024_S1024x1024_S4x2048x1024_2_0_01_1_n_n_wf : DotDims.WF S4x2048x1024 S1024x1024 S4x2048x1024 [2] [0] [0, 1] [1] [] []

variable [Facts₀]

def dot_S4x2048x1024_S1024x1024_S4x2048x1024_2_0_01_1_n_n : DotDims S4x2048x1024 S1024x1024 S4x2048x1024 where
  lhsContracting := [2]
  rhsContracting := [0]
  lhsNonContracting := [0, 1]
  rhsNonContracting := [1]
  lhsBatch := []
  rhsBatch := []
  wf := dot_S4x2048x1024_S1024x1024_S4x2048x1024_2_0_01_1_n_n_wf

class Facts : Prop extends Facts₀ where

variable [Facts]
-- ==== Proof.KernelPayload.lean ====
/-
  What the kernel body stores, read at an entry of the block.

  The body loads a [1024, 1024] block of rows `x`, the whole combined weight `w` and the bias row `b : [1, 1024]`,
  and stores `tanh (x · w + b)` — the matrix product into a zero accumulator, the bias row repeated down the block.
  At row `p` and column `q` that is `tanh (∑ k, x[p,k] · w[k,q] + b[0,q])`: the change of float format on `x` is
  the identity on extended reals, the casts to the same shape are identities, the product into the zero accumulator
  is the plain sum over the contracted axis, and the broadcast reads the bias row's one row.
-/
import proofs.«180438_j81020263071912_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-- The matrix product's dimension numbers: rows of the left operand against columns of the right. -/
abbrev mm : DotDims S1024x1024 S1024x1024 S1024x1024 := dot_S1024x1024_S1024x1024_S1024x1024_1_0_0_1_n_n

/-- The left operand's index: the output's row, the contracted coordinate. -/
theorem mm_lhs (p q k : Fin 1024) :
    mm.lhsIdx (ix2 p q) ((contrEquiv1 mm 1024 rfl rfl).symm k) = ix2 p k := by
  have hk := contrEquiv1_symm_val mm 1024 rfl rfl k
  funext a
  apply Fin.ext
  match a with
  | ⟨0, _⟩ =>
    show (mm.lhsIdx (ix2 p q) _ 0).val = p.val
    unfold DotDims.lhsIdx
    rw [dif_neg (show ¬(0 : Fin S1024x1024.rank) ∈ mm.lhsBatch by decide), dif_pos (show (0 : Fin S1024x1024.rank) ∈ mm.lhsNonContracting by decide)]
    rfl
  | ⟨1, _⟩ => exact (mm.lhsIdx_val_of_single rfl (ix2 p q) _).trans hk

/-- The right operand's index: the contracted coordinate, the output's column. -/
theorem mm_rhs (p q k : Fin 1024) :
    mm.rhsIdx (ix2 p q) ((contrEquiv1 mm 1024 rfl rfl).symm k) = ix2 k q := by
  have hk := contrEquiv1_symm_val mm 1024 rfl rfl k
  funext a
  apply Fin.ext
  match a with
  | ⟨0, _⟩ => exact (mm.rhsIdx_val_of_single rfl (ix2 p q) _).trans hk
  | ⟨1, _⟩ =>
    show (mm.rhsIdx (ix2 p q) _ 1).val = q.val
    unfold DotDims.rhsIdx
    rw [dif_neg (show ¬(1 : Fin S1024x1024.rank) ∈ mm.rhsBatch by decide), dif_pos (show (1 : Fin S1024x1024.rank) ∈ mm.rhsNonContracting by decide)]
    rfl

/-- The product into the zero accumulator at `[p, q]` is the sum over the contracted axis. -/
theorem mm_apply (l : FVec Ideal S1024x1024 .bf16) (r : FVec Ideal S1024x1024 .bf16) (p q : Fin 1024) :
    matmul (F := Ideal) mm none l r (constant S1024x1024 .f32 0x00000000#32) (ix2 p q) = ∑ k : Fin 1024, l (ix2 p k) * r (ix2 k q) := by
  refine (Ideal.matmul_constant_zero_apply mm none l r (ix2 p q)).trans ?_
  rw [← Equiv.sum_comp (contrEquiv1 mm 1024 rfl rfl).symm]
  refine Finset.sum_congr rfl fun k _ => ?_
  rw [mm_lhs, mm_rhs]

/-- The same product computed on the host, with no accumulator, is the same sum. -/
theorem mm_host_apply (l r : FVec Ideal S1024x1024 .f32) (p q : Fin 1024) :
    Host.dotGeneral (F := Ideal) mm none l r (ix2 p q) = ∑ k : Fin 1024, l (ix2 p k) * r (ix2 k q) := by
  simp only [Host.dotGeneral]
  rw [Ideal.dotGeneral_apply, ← Equiv.sum_comp (contrEquiv1 mm 1024 rfl rfl).symm]
  refine Finset.sum_congr rfl fun k _ => ?_
  rw [mm_lhs, mm_rhs]

/-- The stored value at row `p`, column `q` of the block. -/
theorem pay_apply (x : Vec Ideal S1024x1024 .f32) (w : Vec Ideal S1024x1024 .bf16) (b : Vec Ideal S1x1024 .f32) (p q : Fin 1024) :
    k0_pay1 (F := Ideal) x w b (ix2 p q) = Ideal.tanh ((∑ k : Fin 1024, x (ix2 p k) * w (ix2 k q)) + b (ix2 (0 : Fin 1) q)) := by
  unfold k0_pay1
  simp only [shapeCast_self]
  refine congrArg Ideal.tanh (congrArg₂ (· + ·) ?_ ?_)
  · exact mm_apply _ _ p q
  · exact broadcastTo_1b_ab_apply b _ p q

end Cert.KernelIdeal.Body

end
-- ==== Proof.Blocks.lean ====
/-
  From blocks to the array: what the region leaves in its output.

  The grid has eight points; point `t` stages rows `1024·t … 1024·t + 1023` of the flattened activations, the whole
  combined weight and the whole bias row, and writes back rows `1024·t … 1024·t + 1023` of the output.  What it
  writes at row `p`, column `q` of the block is `tanh (∑ k, rows[1024·t + p, k] · weight[k, q] + bias[0, q])`: the
  block of ONE function of the array's index, `rowsOut`.  The eight blocks tile the [8192, 1024] output (row `r` is
  in block `r / 1024`), so the output ends holding `rowsOut` of the three staged arrays.
-/
import proofs.«180438_j81020263071912_2_alg».proof.Proof.Gen.KernelIdeal.Frame
import proofs.«180438_j81020263071912_2_alg».proof.Proof.KernelPayload
import Idealize.ShloMosaic.Lib.Pipeline.Value

noncomputable section

namespace Cert.KernelIdeal.Blocks

open Cert.KernelIdeal Cert.KernelIdeal.Gen Cert.KernelIdeal.Body Idealize.ShloMosaic Idealize.ShloMosaic.TcCoe
open Idealize.SL.Sem Idealize.ShloMosaic.ValueIdx
open Idealize.ShloMosaic.Pipeline (Dat)

variable (m : (ℓ : Loc nD τ sig) → Buf (Elt Ideal) ℓ)

theorem hz : (![0, 0] : Fin 2 → Nat) = fun _ => 0 := funext fun a => by fin_cases a <;> rfl

/-- The output rows as one function of the staged rows `R`, combined weight `Wc` and bias row `b`. -/
def rowsOut (R : S8192x1024.Idx → EReal) (Wc : S1024x1024.Idx → EReal) (b : S1x1024.Idx → EReal) : S8192x1024.Idx → EReal :=
  fun i => Ideal.tanh ((∑ k : Fin 1024, R (ix2 (i 0) k) * Wc (ix2 k (i 1))) + b (ix2 (0 : Fin 1) (i 1)))

theorem rowsOut_ix2 (R : S8192x1024.Idx → EReal) (Wc : S1024x1024.Idx → EReal) (b : S1x1024.Idx → EReal) (r : Fin 8192) (d : Fin 1024) :
    rowsOut R Wc b (ix2 r d) = Ideal.tanh ((∑ k : Fin 1024, R (ix2 r k) * Wc (ix2 k d)) + b (ix2 (0 : Fin 1) d)) := rfl

/-- One entry of a block: if the loaded blocks are row `r` of `R`, column `q` of `Wc` and the row of `b`, the stored
    value at `[p, q]` is `rowsOut` at `[r, q]`. -/
theorem entry_eq (R : S8192x1024.Idx → EReal) (Wc : S1024x1024.Idx → EReal) (b : S1x1024.Idx → EReal)
    (x : Vec Ideal S1024x1024 .f32) (w : Vec Ideal S1024x1024 .bf16) (bb : Vec Ideal S1x1024 .f32) (r : Fin 8192) (p q : Fin 1024)
    (hx : ∀ k : Fin 1024, x (ix2 p k) = R (ix2 r k)) (hw : ∀ k : Fin 1024, w (ix2 k q) = Wc (ix2 k q))
    (hb : bb (ix2 (0 : Fin 1) q) = b (ix2 (0 : Fin 1) q)) :
    k0_pay1 (F := Ideal) x w bb (ix2 p q) = rowsOut R Wc b (ix2 r q) := by
  rw [pay_apply, rowsOut_ix2, hb]
  exact congrArg (fun s => Ideal.tanh (s + b (ix2 (0 : Fin 1) q))) (Finset.sum_congr rfl fun k _ => by rw [hx k, hw k])

/-- The index maps over the grid: the rows' and the output's blocks move with the point, the weight's and the bias's stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is block `t` of `rowsOut` of the staged arrays. -/
theorem flushed_eq (c : Dev nD) (t : Fin cfg0.N) :
    (dats m 0 c).flushed 3 t
      = ((cfg0.win 3).blk t).view.read (Elt Ideal) (rowsOut (V m c main_v0) (V m c main_v4) (V m c main_v1)) := by
  show (cfg0.win 3).cut (grid0.coords t) ((dats m 0 c).after 3 t) = _
  rw [after0_3]
  unfold out0_3
  rw [View.canon_unit_zero hz]
  simp only [View.ld_unit_zero (S := S1024x1024) hz, View.ld_unit_zero (S := S1x1024) hz]
  obtain ⟨e00, e01, e10, e11, e20, e21, e30, e31⟩ := idx_facts t
  have hN : cfg0.N = 8 := N_0
  have ht : t.val < 8 := hN ▸ t.isLt
  refine funext fun (j : S1024x1024.Idx) => ?_
  show k0_pay1 (F := Ideal) (iblk m c 0 t) (iblk m c 1 t) (iblk m c 2 t) j
      = rowsOut (V m c main_v0) (V m c main_v4) (V m c main_v1) (((cfg0.win 3).blk t).view.emb j)
  obtain ⟨p, q, rfl⟩ : ∃ (p q : Fin 1024), j = ix2 p q := ⟨j 0, j 1, eq_ix2 j⟩
  have hp : p.val < 1024 := p.isLt
  have hemb : ((cfg0.win 3).blk t).view.emb (ix2 p q) = ix2 (⟨t.val * 1024 + p.val, by omega⟩ : Fin 8192) q := by
    funext a; apply Fin.ext
    match a with
    | ⟨0, _⟩ => show win0_3.index t (0 : Fin 2) * 1024 + 1 * p.val = t.val * 1024 + p.val; omega
    | ⟨1, _⟩ => show win0_3.index t (1 : Fin 2) * 1024 + 1 * q.val = q.val; omega
  rw [hemb]
  refine entry_eq (V m c main_v0) (V m c main_v4) (V m c main_v1) (iblk m c 0 t) (iblk m c 1 t) (iblk m c 2 t)
    ⟨t.val * 1024 + p.val, by omega⟩ p q (fun k => ?_) (fun k => ?_) ?_
  · show V m c main_v0 (((cfg0.win 0).blk t).view.emb (ix2 p k)) = V m c main_v0 _
    refine congrArg (V m c main_v0) (funext fun a => Fin.ext ?_)
    match a with
    | ⟨0, _⟩ => show win0_0.index t (0 : Fin 2) * 1024 + 1 * p.val = t.val * 1024 + p.val; omega
    | ⟨1, _⟩ => show win0_0.index t (1 : Fin 2) * 1024 + 1 * k.val = k.val; omega
  · show V m c main_v4 (((cfg0.win 1).blk t).view.emb (ix2 k q)) = V m c main_v4 _
    refine congrArg (V m c main_v4) (funext fun a => Fin.ext ?_)
    match a with
    | ⟨0, _⟩ => show win0_1.index t (0 : Fin 2) * 1024 + 1 * k.val = k.val; omega
    | ⟨1, _⟩ => show win0_1.index t (1 : Fin 2) * 1024 + 1 * q.val = q.val; omega
  · show V m c main_v1 (((cfg0.win 2).blk t).view.emb (ix2 (0 : Fin 1) q)) = V m c main_v1 _
    refine congrArg (V m c main_v1) (funext fun a => Fin.ext ?_)
    match a with
    | ⟨0, _⟩ => show win0_2.index t (0 : Fin 2) * 1 + 1 * 0 = 0; omega
    | ⟨1, _⟩ => show win0_2.index t (1 : Fin 2) * 1024 + 1 * q.val = q.val; omega

/-- An index of the output is in point `t`'s block iff each coordinate is in the block's range on its axis. -/
theorem mem_blk (t : Fin cfg0.N) (i : S8192x1024.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v5).slice (win0_3.rect t)).set ↔ _
  rw [View.set_slice_whole, Rect.mem_set_unit]
  exact Iff.rfl

/-- Every index of the output is in the block of the point its row falls in. -/
theorem cover (i : S8192x1024.Idx) :
    ∃ t : Fin cfg0.N, (cfg0.win 3).flush t = true ∧ i ∈ ((cfg0.win 3).blk t).view.set := by
  have hi0 : (i 0).val < 8192 := (i 0).isLt
  have hi1 : (i 1).val < 1024 := (i 1).isLt
  have hN : cfg0.N = 8 := N_0
  obtain ⟨t, ht⟩ : ∃ t : Fin cfg0.N, t.val = (i 0).val / 1024 := ⟨⟨(i 0).val / 1024, by rw [hN]; omega⟩, rfl⟩
  obtain ⟨-, -, -, -, -, -, e30, e31⟩ := idx_facts t
  refine ⟨t, flush0_3 t, ?_⟩
  rw [mem_blk]
  intro a
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 1024 ≤ (i 1).val ∧ (i 1).val < win0_3.index t (1 : Fin 2) * 1024 + 1024
    omega

/-- The output array after the region: `rowsOut` of the three staged arrays. -/
theorem final (c : Dev nD) :
    (dats m 0 c).arrAt 3 cfg0.N = rowsOut (V m c main_v0) (V m c main_v4) (V m c main_v1) :=
  (dats m 0 c).arrAt_eq_of_cover 3 _ (fun t _ => flushed_eq m c t) cover

end Cert.KernelIdeal.Blocks

end
-- ==== Proof.LibMatChain.lean ====
/-
  A row vector times a chain of three matrices, re-associated, on the extended reals.

  For a row vector `x` and matrices `W`, `A`, `B` (here `B` is one column of the last matrix),
      x · ((W · A) · B)  =  ((x · W) · A) · B.
  Over the reals this is associativity of matrix multiplication: both sides are the triple sum
  `∑ k, ∑ l, ∑ j, x k * W k l * A l j * B j`, reached by distributing each product over the inner sums and
  exchanging the order of summation.  On the extended reals distributivity fails at the infinities, so the law is
  stated for entries that are coercions of reals: every product and every finite sum of such entries is again the
  coercion of a real, and the equation is the real one under the coercion.
-/
import Mathlib.Data.EReal.Operations
import Mathlib.Algebra.BigOperators.Ring.Finset
import Mathlib.Algebra.BigOperators.Group.Finset.Sigma
import Mathlib.Tactic.Ring

namespace MatChain

open Finset

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

variable {K L J : Type*} [Fintype K] [Fintype L] [Fintype J]

/-- Associativity of the product chain over the reals: both sides are `∑ j, ∑ l, ∑ k, x k * W k l * A l j * B j`. -/
theorem chain_real (x : K → ℝ) (W : K → L → ℝ) (A : L → J → ℝ) (B : J → ℝ) :
    ∑ k, x k * ∑ j, (∑ l, W k l * A l j) * B j = ∑ j, (∑ l, (∑ k, x k * W k l) * A l j) * B j := by
  simp only [Finset.mul_sum, Finset.sum_mul]
  rw [Finset.sum_comm]
  refine Finset.sum_congr rfl fun j _ => ?_
  rw [Finset.sum_comm]
  exact Finset.sum_congr rfl fun l _ => Finset.sum_congr rfl fun k _ => by ring

/-- The same law for extended reals that are coercions of reals. -/
theorem chain_coe (x : K → ℝ) (W : K → L → ℝ) (A : L → J → ℝ) (B : J → ℝ) :
    ∑ k, (x k : EReal) * ∑ j, (∑ l, (W k l : EReal) * (A l j : EReal)) * (B j : EReal)
      = ∑ j, (∑ l, (∑ k, (x k : EReal) * (W k l : EReal)) * (A l j : EReal)) * (B j : EReal) := by
  simp only [← EReal.coe_mul, ← coe_sum]
  exact congrArg _ (chain_real x W A B)

/-- The law for extended-real entries each of which is known to be a real: a row `X`, matrices `W`, `A` and a
    column `B`, with no infinite entry. -/
theorem chain_of_real (X : K → EReal) (W : K → L → EReal) (A : L → J → EReal) (B : J → EReal)
    (hX : ∀ k, ∃ r : ℝ, X k = r) (hW : ∀ k l, ∃ r : ℝ, W k l = r) (hA : ∀ l j, ∃ r : ℝ, A l j = r)
    (hB : ∀ j, ∃ r : ℝ, B j = r) :
    ∑ k, X k * ∑ j, (∑ l, W k l * A l j) * B j = ∑ j, (∑ l, (∑ k, X k * W k l) * A l j) * B j := by
  choose x hx using hX
  choose w hw using hW
  choose a ha using hA
  choose b hb using hB
  simp only [hx, hw, ha, hb]
  exact chain_coe x w a b

end MatChain
-- ==== Proof.Spec.lean ====
/-
  The dense layer as one function of its five arrays, index by index, in its two arrangements.

  For `x : [4, 2048, 1024]`, three square weights `W, A₁, A₂ : [1024, 1024]` and `bias : [1024]` the layer is
      out[b, t, d] = tanh ( (((x · W) · A₁) · A₂)[b, t, d] + bias[d] ).
  `chained` multiplies the row `x[b, t, ·]` through the three weights one after the other; `fused` first combines the
  weights, `(W · A₁) · A₂`, and multiplies the row by the combined matrix once.  The two agree whenever no entry of
  `x`, `W`, `A₁`, `A₂` is infinite (associativity of the matrix product, `MatChain.chain_of_real`); the bias and the
  hyperbolic tangent are applied to equal sums and play no part.
-/
import Idealize.ShloMosaic.PureOps.Ideal
import Idealize.ShloMosaic.Lib.ValueIdx
import proofs.«180438_j81020263071912_2_alg».proof.Proof.LibMatChain

noncomputable section

namespace Cert.DenseLayer

open Idealize.ShloMosaic Idealize.ShloMosaic.ValueIdx

/-- The shapes: activations, a square weight, the bias. -/
abbrev SX : Shape := ⟨3, ![4, 2048, 1024]⟩
abbrev SM : Shape := ⟨2, ![1024, 1024]⟩
abbrev SV : Shape := ⟨1, ![1024]⟩

variable (X : SX.Idx → EReal) (W A₁ A₂ : SM.Idx → EReal) (B : SV.Idx → EReal)

/-- The row `x[b, t, ·]` through the three weights in turn, at column `d`:
    `∑ j, (∑ l, (∑ k, x[b,t,k] · W[k,l]) · A₁[l,j]) · A₂[j,d]`. -/
def chainedSum (b : Fin 4) (t : Fin 2048) (d : Fin 1024) : EReal :=
  ∑ j : Fin 1024, (∑ l : Fin 1024, (∑ k : Fin 1024, X (ix3 b t k) * W (ix2 k l)) * A₁ (ix2 l j)) * A₂ (ix2 j d)

/-- Entry `[k, d]` of the combined weight `(W · A₁) · A₂`. -/
def combined (k d : Fin 1024) : EReal :=
  ∑ j : Fin 1024, (∑ l : Fin 1024, W (ix2 k l) * A₁ (ix2 l j)) * A₂ (ix2 j d)

/-- The row `x[b, t, ·]` times the combined weight, at column `d`. -/
def fusedSum (b : Fin 4) (t : Fin 2048) (d : Fin 1024) : EReal :=
  ∑ k : Fin 1024, X (ix3 b t k) * combined W A₁ A₂ k d

/-- The layer with the weights applied one after the other. -/
def chained : SX.Idx → EReal := fun i =>
  Ideal.tanh (chainedSum X W A₁ A₂ (i 0) (i 1) (i 2) + B (ix1 (i 2)))

/-- The layer with the weights combined first. -/
def fused : SX.Idx → EReal := fun i =>
  Ideal.tanh (fusedSum X W A₁ A₂ (i 0) (i 1) (i 2) + B (ix1 (i 2)))

/-- The two arrangements read at an index given by its coordinates. -/
theorem chained_ix3 (b : Fin 4) (t : Fin 2048) (d : Fin 1024) :
    chained X W A₁ A₂ B (ix3 b t d) = Ideal.tanh (chainedSum X W A₁ A₂ b t d + B (ix1 d)) := rfl
theorem fused_ix3 (b : Fin 4) (t : Fin 2048) (d : Fin 1024) :
    fused X W A₁ A₂ B (ix3 b t d) = Ideal.tanh (fusedSum X W A₁ A₂ b t d + B (ix1 d)) := rfl

variable {X W A₁ A₂}

/-- With no infinite entry the two sums are one: matrix multiplication is associative. -/
theorem fusedSum_eq_chainedSum (hX : ∀ i, ∃ r : ℝ, X i = r) (hW : ∀ i, ∃ r : ℝ, W i = r)
    (hA₁ : ∀ i, ∃ r : ℝ, A₁ i = r) (hA₂ : ∀ i, ∃ r : ℝ, A₂ i = r) (b : Fin 4) (t : Fin 2048) (d : Fin 1024) :
    fusedSum X W A₁ A₂ b t d = chainedSum X W A₁ A₂ b t d :=
  MatChain.chain_of_real (fun k : Fin 1024 => X (ix3 b t k)) (fun k l : Fin 1024 => W (ix2 k l))
    (fun l j : Fin 1024 => A₁ (ix2 l j)) (fun j : Fin 1024 => A₂ (ix2 j d))
    (fun _ => hX _) (fun _ _ => hW _) (fun _ _ => hA₁ _) (fun _ => hA₂ _)

/-- So the two arrangements of the layer are one function. -/
theorem fused_eq_chained (hX : ∀ i, ∃ r : ℝ, X i = r) (hW : ∀ i, ∃ r : ℝ, W i = r)
    (hA₁ : ∀ i, ∃ r : ℝ, A₁ i = r) (hA₂ : ∀ i, ∃ r : ℝ, A₂ i = r) :
    fused X W A₁ A₂ B = chained X W A₁ A₂ B := by
  funext i
  exact congrArg (fun s => Ideal.tanh (s + B (ix1 (i 2)))) (fusedSum_eq_chainedSum hX hW hA₁ hA₂ (i 0) (i 1) (i 2))

end Cert.DenseLayer

end
-- ==== Proof.Arrays.lean ====
/-
  The three arrays the region stages, as functions of the program's arguments.

  Before the region the program flattens `x : [4, 2048, 1024]` to rows `[8192, 1024]` (row `2048·b + t` is
  `x[b, t, ·]`), views the bias as one row `[1, 1024]`, and combines the three weights by two matrix products,
  `(W · A₁) · A₂`, changing the float format of the result (the identity on extended reals).  Each is read here at
  an index given by its coordinates.
-/
import proofs.«180438_j81020263071912_2_alg».proof.Proof.Gen.KernelIdeal.Frame
import proofs.«180438_j81020263071912_2_alg».proof.Proof.KernelPayload
import proofs.«180438_j81020263071912_2_alg».proof.Proof.Spec
import Idealize.ShloMosaic.Lib.StableHlo.Run

noncomputable section

namespace Cert.KernelIdeal.Arrays

open Cert.KernelIdeal Cert.KernelIdeal.Gen Cert.KernelIdeal.Body Idealize.ShloMosaic Idealize.ShloMosaic.TcCoe
open Idealize.SL.Sem Idealize.ShloMosaic.StableHlo Idealize.ShloMosaic.ValueIdx

variable (m : (ℓ : Loc nD τ sig) → Buf (Elt Ideal) ℓ)

/-- The rows the region reads: the activations flattened. -/
theorem V_rows (c : Dev nD) :
    (V m c main_v0 : S8192x1024.Idx → EReal)
      = shapeCast S8192x1024 (m ((c : Thread nD τ).loc main_arg0)) shapeCasts_S4x2048x1024_S8192x1024 := by
  show StableHlo.after hostOps0 (fun b => m (c, b)) (Proc.devRef .tc main_v0) = _
  after_results
  rfl

/-- The bias the region reads: the bias as one row. -/
theorem V_bias (c : Dev nD) :
    (V m c main_v1 : S1x1024.Idx → EReal)
      = shapeCast S1x1024 (m ((c : Thread nD τ).loc main_arg4)) shapeCasts_S1024_S1x1024 := by
  show StableHlo.after hostOps0 (fun b => m (c, b)) (Proc.devRef .tc main_v1) = _
  after_results
  rfl

/-- The weight the region reads: the three weights combined. -/
theorem V_weight (c : Dev nD) :
    V m c main_v4
      = (truncf (F := Ideal) .bf16 (Host.dotGeneral (F := Ideal) (φ₁ := .f32) (φ₂ := .f32) mm none
          (Host.dotGeneral (F := Ideal) (φ₁ := .f32) (φ₂ := .f32) mm none (m ((c : Thread nD τ).loc main_arg1) : FVec Ideal S1024x1024 .f32)
            (m ((c : Thread nD τ).loc main_arg2) : FVec Ideal S1024x1024 .f32) : FVec Ideal S1024x1024 .f32)
          (m ((c : Thread nD τ).loc main_arg3) : FVec Ideal S1024x1024 .f32) : FVec Ideal S1024x1024 .f32) bitsLt_bf16_f32 : FVec Ideal S1024x1024 .bf16) := by
  show StableHlo.after hostOps0 (fun b => m (c, b)) (Proc.devRef .tc main_v4) = _
  after_results

/-- Row `2048·b + t` of the flattened activations is `x[b, t, ·]`. -/
theorem rows_apply (X : S4x2048x1024.Idx → EReal) (b : Fin 4) (t : Fin 2048) (k : Fin 1024) (r : Fin 8192)
    (hr : r.val = b.val * 2048 + t.val) :
    shapeCast S8192x1024 X shapeCasts_S4x2048x1024_S8192x1024 (ix2 r k) = X (ix3 b t k) := by
  refine shapeCast_apply X _ (ix2 r k) (ix3 b t k) ?_
  rw [Shape.rowMajor_val_three, Shape.rowMajor_val_two]
  show (b.val * 2048 + t.val) * 1024 + k.val = r.val * 1024 + k.val
  rw [hr]

/-- The bias row at column `d` is `bias[d]`. -/
theorem bias_apply (B : S1024.Idx → EReal) (d : Fin 1024) :
    shapeCast S1x1024 B shapeCasts_S1024_S1x1024 (ix2 (0 : Fin 1) d) = B (ix1 d) := by
  refine shapeCast_apply B _ (ix2 (0 : Fin 1) d) (ix1 d) ?_
  rw [Shape.rowMajor_val_one, Shape.rowMajor_val_two]
  show d.val = 0 * 1024 + d.val
  omega

/-- Entry `[k, d]` of the staged weight is entry `[k, d]` of `(W · A₁) · A₂`. -/
theorem weight_apply (W A₁ A₂ : FVec Ideal S1024x1024 .f32) (k d : Fin 1024) :
    (truncf (F := Ideal) .bf16 (Host.dotGeneral (F := Ideal) (φ₁ := .f32) (φ₂ := .f32) mm none (Host.dotGeneral (F := Ideal) (φ₁ := .f32) (φ₂ := .f32) mm none W A₁ : FVec Ideal S1024x1024 .f32) A₂ : FVec Ideal S1024x1024 .f32) bitsLt_bf16_f32 : FVec Ideal S1024x1024 .bf16) (ix2 k d)
      = Cert.DenseLayer.combined W A₁ A₂ k d := by
  rw [truncf_apply, mm_host_apply]
  unfold Cert.DenseLayer.combined
  refine Finset.sum_congr rfl fun j _ => ?_
  rw [mm_host_apply]

end Cert.KernelIdeal.Arrays

end
-- ==== Proof.Layer.lean ====
/-
  The kernel program's result as a function of its arguments.

  After the region the program views the [8192, 1024] output as [4, 2048, 1024]: entry `[b, t, d]` is row
  `2048·b + t`, column `d` of the output, which the region left at `tanh (∑ k, rows[2048·b + t, k] · weight[k, d] +
  bias[0, d])`.  With the staged arrays read back to the arguments — the rows are `x[b, t, ·]`, the weight is
  `(W · A₁) · A₂`, the bias row is the bias — this is `DenseLayer.fused` of the five arguments.
-/
import proofs.«180438_j81020263071912_2_alg».proof.Proof.Blocks
import proofs.«180438_j81020263071912_2_alg».proof.Proof.Arrays

noncomputable section

namespace Cert.KernelIdeal.Layer

open Cert.KernelIdeal Cert.KernelIdeal.Gen Cert.KernelIdeal.Body Cert.KernelIdeal.Blocks Cert.KernelIdeal.Arrays
open Idealize.ShloMosaic Idealize.ShloMosaic.TcCoe Idealize.SL.Sem Idealize.ShloMosaic.StableHlo Idealize.ShloMosaic.ValueIdx
open Idealize.ShloMosaic.Pipeline (Dat)

variable (m : (ℓ : Loc nD τ sig) → Buf (Elt Ideal) ℓ) (ρ : Dev nD → PrngReg)

/-- The program's result buffer after the lines that follow the region. -/
theorem result_eq (c : Dev nD) :
    Pipeline.afterTail₀ cfgs (dats m) 0 (V0 m) [hostOps1] c main_v6
      = Cert.DenseLayer.fused (m ((c : Thread nD τ).loc main_arg0)) (m ((c : Thread nD τ).loc main_arg1))
          (m ((c : Thread nD τ).loc main_arg2)) (m ((c : Thread nD τ).loc main_arg3)) (m ((c : Thread nD τ).loc main_arg4)) := by
  have hw : Pipeline.withArrays (cfgs 0).spec c (V0 m c) (fun w => (dats m 0 c).arrAt w (cfgs 0).N) (Proc.devRef .tc main_v5)
      = rowsOut (V m c main_v0) (V m c main_v4) (V m c main_v1) :=
    (Pipeline.withArrays_arr spec0 launch0.win.arr_inj c _ _ 3).trans (Blocks.final m c)
  unfold Pipeline.afterTail₀
  show StableHlo.after hostOps1 _ (Proc.devRef .tc main_v6) = _
  after_results
  funext i
  obtain ⟨b, t, d, rfl⟩ : ∃ (b : Fin 4) (t : Fin 2048) (d : Fin 1024), i = ix3 b t d := ⟨i 0, i 1, i 2, eq_ix3 i⟩
  show shapeCast S4x2048x1024 (Pipeline.withArrays (cfgs 0).spec c (V0 m c) (fun w => (dats m 0 c).arrAt w (cfgs 0).N) (Proc.devRef .tc main_v5))
      shapeCasts_S8192x1024_S4x2048x1024 (ix3 b t d) = _
  rw [hw, V_rows, V_weight, V_bias]
  have hb : b.val < 4 := b.isLt
  have ht : t.val < 2048 := t.isLt
  refine (shapeCast_apply _ _ (ix3 b t d) (ix2 (⟨b.val * 2048 + t.val, by omega⟩ : Fin 8192) d) ?_).trans ?_
  · rw [Shape.rowMajor_val_three, Shape.rowMajor_val_two]
    rfl
  · rw [rowsOut_ix2, bias_apply, Cert.DenseLayer.fused_ix3]
    unfold Cert.DenseLayer.fusedSum
    exact congrArg (fun s => Ideal.tanh (s + m ((c : Thread nD τ).loc main_arg4) (ix1 d)))
      (Finset.sum_congr rfl fun k _ => by rw [rows_apply _ b t k _ rfl, weight_apply])

/-- Every weakly fair execution of the kernel program terminates with its result at `fused` of the arguments and the
    arguments unchanged. -/
theorem run : θ_run defs (onTc (τ := τ) (main (F := Ideal))) ⟨m, fun _ => 0, ρ⟩ fun r => ∀ c : Dev nD,
      r.2.mem ((c.tc : Thread nD τ).loc main_v6)
        = Cert.DenseLayer.fused (m ((c : Thread nD τ).loc main_arg0)) (m ((c : Thread nD τ).loc main_arg1))
            (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v6 (Pipeline.mem_restRefs_of main_v6 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Layer

end
-- ==== Proof.RefValue.lean ====
/-
  The reference computes the layer with the weights applied one after the other.

  Its seven operations are three contractions of the last axis of a [4, 2048, 1024] array with the first axis of a
  square weight, the bias broadcast along the first two axes, a sum and a hyperbolic tangent.  Read at an index
  `[b, t, d]` (the generated read-at-an-index lemmas), the three contractions nest as
  `∑ j, (∑ l, (∑ k, x[b,t,k] · W[k,l]) · A₁[l,j]) · A₂[j,d]`, and the broadcast bias is `bias[d]`: the function
  `DenseLayer.chained`.
-/
import proofs.«180438_j81020263071912_2_alg».proof.Proof.Gen.ReferenceIdeal.Read
import proofs.«180438_j81020263071912_2_alg».proof.Proof.Spec

noncomputable section

namespace Cert.ReferenceIdeal.RefValue

open Cert.ReferenceIdeal Cert.ReferenceIdeal.Read Idealize.ShloMosaic Idealize.ShloMosaic.ValueIdx

/-- The operand indices of the three nested contractions and of the two broadcasts, as coordinates. -/
theorem lhs_inner (b : Fin 4) (t : Fin 2048) (d j l k : Fin 1024) :
    lidx_main_v0 (lidx_main_v1 (lidx_main_v2 (ix3 b t d) j) l) k = ix3 b t k :=
  funext fun a => by match a with | ⟨0, _⟩ => rfl | ⟨1, _⟩ => rfl | ⟨2, _⟩ => rfl
theorem rhs_inner (b : Fin 4) (t : Fin 2048) (d j l k : Fin 1024) :
    ridx_main_v0 (lidx_main_v1 (lidx_main_v2 (ix3 b t d) j) l) k = ix2 k l :=
  funext fun a => by match a with | ⟨0, _⟩ => rfl | ⟨1, _⟩ => rfl
theorem rhs_middle (b : Fin 4) (t : Fin 2048) (d j l : Fin 1024) :
    ridx_main_v1 (lidx_main_v2 (ix3 b t d) j) l = ix2 l j :=
  funext fun a => by match a with | ⟨0, _⟩ => rfl | ⟨1, _⟩ => rfl
theorem rhs_outer (b : Fin 4) (t : Fin 2048) (d j : Fin 1024) :
    ridx_main_v2 (ix3 b t d) j = ix2 j d :=
  funext fun a => by match a with | ⟨0, _⟩ => rfl | ⟨1, _⟩ => rfl
theorem bias_idx (b : Fin 4) (t : Fin 2048) (d : Fin 1024) :
    idx_main_v3 (idx_main_v4 (ix3 b t d)) = ix1 d :=
  funext fun a => by match a with | ⟨0, _⟩ => rfl

/-- The reference's result is `chained` of its five arguments. -/
theorem result_eq (x0 : (⟨S4x2048x1024, .f32⟩ : BufTy).Contents (Elt Ideal)) (x1 x2 x3 : (⟨S1024x1024, .f32⟩ : BufTy).Contents (Elt Ideal))
    (x4 : (⟨S1024, .f32⟩ : BufTy).Contents (Elt Ideal)) :
    val_main_v6 (F := Ideal) x0 x1 x2 x3 x4 = Cert.DenseLayer.chained x0 x1 x2 x3 x4 := by
  funext i
  obtain ⟨b, t, d, rfl⟩ : ∃ (b : Fin 4) (t : Fin 2048) (d : Fin 1024), i = ix3 b t d := ⟨i 0, i 1, i 2, eq_ix3 i⟩
  rw [val_main_v6_apply, val_main_v5_apply, val_main_v2_apply, val_main_v4_apply, val_main_v3_apply,
    Cert.DenseLayer.chained_ix3]
  simp only [val_main_v1_apply, val_main_v0_apply, lhs_inner, rhs_inner, rhs_middle, rhs_outer, bias_idx]
  rfl

end Cert.ReferenceIdeal.RefValue

end
-- ==== Proof.Finite.lean ====
/-
  The precondition, read: every entry of every input is a real number.

  The precondition is the conjunction, over the five inputs, of `all (|a| < +∞)`: each `all` is a reduction by
  `and` from the word 1 into a result with one index, so when the whole conjunction is 1 every comparison word is 1,
  and an extended real whose absolute value `max a (−a)` lies strictly below `⊤` is neither `⊤` nor `⊥`.
-/
import proofs.«180438_j81020263071912_2_alg».proof.Pre_finite_inputs
import Idealize.ShloMosaic.PureOps.Ideal
import Idealize.ShloMosaic.Lib.ReduceAll
import Idealize.ShloMosaic.Lib.ValueIdx

noncomputable section

namespace Cert.Pre_finite_inputs.Finite

open Cert.Pre_finite_inputs Idealize.ShloMosaic Idealize.ShloMosaic.ValueIdx

/-- The scalar shape has one index. -/
instance : Subsingleton S_.Idx := ⟨fun _ _ => funext fun d => d.elim0⟩

/-- The f32 pattern with all exponent bits set and no fraction bit denotes `+∞`. -/
theorem inf_word : Ideal.ofBits .f32 0x7F800000#32 = ⊤ := by simp [Ideal.ofBits, Ideal.ieee]

/-- An extended real whose absolute value is strictly below `+∞` is a real. -/
theorem real_of_abs_lt (x : EReal) (h : Ideal.cmp .olt (max x (-x)) ⊤ = 1#1) : ∃ r : ℝ, x = r := by
  induction x using EReal.rec with
  | bot => simp [Ideal.cmp] at h
  | coe r => exact ⟨r, rfl⟩
  | top => simp [Ideal.cmp] at h

/-- One input's comparison word at an index being 1 makes that entry a real. -/
theorem entry_real {s : Shape} (a : FVec Ideal s .f32) (hb : S_.BroadcastsInDim s (![] : Fin 0 → Fin s.rank)) (i : s.Idx)
    (e : cmpf .olt (Host.absf a) (broadcastInDim s ![] hb (constant (F := Ideal) S_ .f32 0x7F800000#32)) i = 1#1) :
    ∃ r : ℝ, a i = r :=
  real_of_abs_lt (a i) (by rw [← inf_word]; exact e)

variable [Facts]

/-- Under the precondition no input has an infinite entry. -/
theorem reals_of_pre (a0 : FVec Ideal S4x2048x1024 .f32) (a1 a2 a3 : FVec Ideal S1024x1024 .f32) (a4 : FVec Ideal S1024 .f32)
    (hpre : fn (F := Ideal) a0 a1 a2 a3 a4 = fun _ => 1#1) :
    (∀ i, ∃ r : ℝ, a0 i = r) ∧ (∀ i, ∃ r : ℝ, a1 i = r) ∧ (∀ i, ∃ r : ℝ, a2 i = r) ∧ (∀ i, ∃ r : ℝ, a3 i = r)
      ∧ (∀ i, ∃ r : ℝ, a4 i = r) := by
  have h := congrFun hpre ix0
  dsimp only [fn, fn_part1] at h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨fun i => entry_real a0 _ i (Host.reduce_andi_all _ _ _ _ ix0 h0 i),
    fun i => entry_real a1 _ i (Host.reduce_andi_all _ _ _ _ ix0 h1 i),
    fun i => entry_real a2 _ i (Host.reduce_andi_all _ _ _ _ ix0 h2 i),
    fun i => entry_real a3 _ i (Host.reduce_andi_all _ _ _ _ ix0 h3 i),
    fun i => entry_real a4 _ i (Host.reduce_andi_all _ _ _ _ ix0 h4 i)⟩

end Cert.Pre_finite_inputs.Finite

end
-- ==== Proof.lean ====
/-
  A dense layer with three chained weights against the same layer with the weights combined first.

  The reference computes `tanh (((x · W) · A₁) · A₂ + bias)` for `x : [4, 2048, 1024]` and square weights, three
  contractions one after the other.  The kernel program combines the weights on the host, `Wc = (W · A₁) · A₂`, flattens
  `x` to 8192 rows, and in eight blocks of 1024 rows stores `tanh (rows · Wc + bias)`; it then views the rows as
  [4, 2048, 1024] again.  On the extended reals every change of float format is the identity and each matrix product is
  the exact sum of products, so entry `[b, t, d]` is

      kernel:     tanh (∑ k, x[b,t,k] · (∑ j, (∑ l, W[k,l] · A₁[l,j]) · A₂[j,d]) + bias[d])
      reference:  tanh (∑ j, (∑ l, (∑ k, x[b,t,k] · W[k,l]) · A₁[l,j]) · A₂[j,d] + bias[d]).

  The two sums are equal by associativity of the matrix product.  That law distributes products over sums, which is
  not valid at the infinities of the extended reals; the precondition — every input entry finite — makes every entry a
  real number, and for reals the law holds (`DenseLayer.fused_eq_chained`).  The bias and the hyperbolic tangent are
  applied to equal arguments on both sides.

  The frames of the two kernel programs are the generated ones; the reference's frame is its generated run with the
  result dropped; no operation was rewritten when the kernel was idealized, so there is nothing to preserve.
-/
import proofs.«180438_j81020263071912_2_alg».proof.Defs
import proofs.«180438_j81020263071912_2_alg».proof.Proof.Gen.Kernel
import proofs.«180438_j81020263071912_2_alg».proof.Proof.Gen.Kernel.Skeleton
import proofs.«180438_j81020263071912_2_alg».proof.Proof.Gen.Kernel.Launch
import proofs.«180438_j81020263071912_2_alg».proof.Proof.Gen.Kernel.Points
import proofs.«180438_j81020263071912_2_alg».proof.Proof.Gen.Kernel.Frame
import proofs.«180438_j81020263071912_2_alg».proof.Proof.Gen.KernelIdeal
import proofs.«180438_j81020263071912_2_alg».proof.Proof.Gen.KernelIdeal.Skeleton
import proofs.«180438_j81020263071912_2_alg».proof.Proof.Gen.KernelIdeal.Launch
import proofs.«180438_j81020263071912_2_alg».proof.Proof.Gen.KernelIdeal.Points
import proofs.«180438_j81020263071912_2_alg».proof.Proof.Gen.KernelIdeal.Frame
import proofs.«180438_j81020263071912_2_alg».proof.Proof.Gen.ReferenceIdeal
import proofs.«180438_j81020263071912_2_alg».proof.Proof.Gen.ReferenceIdeal.Run
import proofs.«180438_j81020263071912_2_alg».proof.Proof.Gen.ReferenceIdeal.Read
import proofs.«180438_j81020263071912_2_alg».proof.Proof.Gen.Pre_finite_inputs
import proofs.«180438_j81020263071912_2_alg».proof.Proof.Layer
import proofs.«180438_j81020263071912_2_alg».proof.Proof.RefValue
import proofs.«180438_j81020263071912_2_alg».proof.Proof.Finite
import Idealize.ShloMosaic.Adequacy
import Idealize.ShloMosaic.Init

noncomputable section

namespace Cert.Proof

open Idealize.ShloMosaic Idealize.SL.Sem

/-- The word-level kernel program terminates without a fault and leaves its arguments as they were. -/
theorem frame_kernel : Cert.frame_Kernel (hKernel := Cert.Kernel.Gen.facts) (hPre_finite_inputs := Cert.Pre_finite_inputs.Gen.facts) :=
  fun m ρ _ => Cert.Kernel.Gen.frame m ρ

/-- So does the kernel program read on the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- And the reference: its run, the result forgotten. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- On finite inputs the kernel program and the reference end with the same result, `chained` of the arguments: the
    kernel's `fused` is `chained` because no entry is infinite, the reference's composed term is `chained` index by
    index, and the two memories agree on the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.DenseLayer.chained (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · refine (θ_run Cert.KernelIdeal.defs _ _).mono (fun _ h c => ⟨(h c).1.trans ?_, (h c).2⟩) (Cert.KernelIdeal.Layer.run m ρ)
    obtain ⟨h0, h1, h2, h3, -⟩ := Cert.Pre_finite_inputs.Finite.reals_of_pre _ _ _ _ _ (hpre c)
    exact Cert.DenseLayer.fused_eq_chained _ h0 h1 h2 h3
  · refine (θ_run Cert.ReferenceIdeal.defs _ _).mono (fun _ h c => ⟨?_, (h c).2⟩)
      (Cert.ReferenceIdeal.Value.run (F := Ideal) m' ρ')
    rw [(h c).1, Cert.ReferenceIdeal.Read.val_main_v6_eq, Cert.ReferenceIdeal.RefValue.result_eq,
      (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
